-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x1024x1024 .f32) (main_arg1 : FVec F S32x1024 .f32) (main_arg2 : FVec F S1024x1024 .f32) (main_arg3 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S32x1x1024 : Shape := ⟨3, ![32, 1, 1024]⟩
abbrev S32x1024x1 : Shape := ⟨3, ![32, 1024, 1]⟩
abbrev S32x1024x2048 : Shape := ⟨3, ![32, 1024, 2048]⟩
abbrev S2x1024x1024 : Shape := ⟨3, ![2, 1024, 1024]⟩
abbrev S2x1x1024 : Shape := ⟨3, ![2, 1, 1024]⟩
abbrev S2x1024x1 : Shape := ⟨3, ![2, 1024, 1]⟩
abbrev S2x1024x2048 : Shape := ⟨3, ![2, 1024, 2048]⟩

abbrev nBuf : Space → Nat
  | .hbm => 19
  | .vmem => 8
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S32x1024, .f32⟩
  | .hbm, ⟨5, _⟩ => ⟨S1x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1x1024, .f32⟩
  | .hbm, ⟨17, _⟩ => ⟨S32x1024x1, .f32⟩
  | .hbm, ⟨18, _⟩ => ⟨S32x1024x2048, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1x1024, .f32⟩
  | .local _ .vmem, ⟨3, _⟩ => ⟨S2x1x1024, .f32⟩
  | .local _ .vmem, ⟨4, _⟩ => ⟨S2x1024x1, .f32⟩
  | .local _ .vmem, ⟨5, _⟩ => ⟨S2x1024x1, .f32⟩
  | .local _ .vmem, ⟨6, _⟩ => ⟨S2x1024x2048, .f32⟩
  | .local _ .vmem, ⟨7, _⟩ => ⟨S2x1024x2048, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  shapeCasts_S32x1024_S32x1x1024 : S32x1024.ShapeCasts S32x1x1024
  shapeCasts_S32x1024_S32x1024x1 : S32x1024.ShapeCasts S32x1024x1
  inb_S2x1024x1024_S2x1024x1024_0_0_0 : ∀ a, (![0, 0, 0] : Fin 3 → Nat) a + S2x1024x1024.size a ≤ S2x1024x1024.size a
  h_S2x1024x1024 : 0 < S2x1024x1024.numel
  inb_S2x1024x1_S2x1024x1_0_0_0 : ∀ a, (![0, 0, 0] : Fin 3 → Nat) a + S2x1024x1.size a ≤ S2x1024x1.size a
  h_S2x1024x1 : 0 < S2x1024x1.numel
  shapeCasts_S2x1024x1_S2x1024x1 : S2x1024x1.ShapeCasts S2x1024x1
  inb_S2x1x1024_S2x1x1024_0_0_0 : ∀ a, (![0, 0, 0] : Fin 3 → Nat) a + S2x1x1024.size a ≤ S2x1x1024.size a
  h_S2x1x1024 : 0 < S2x1x1024.numel
  shapeCasts_S2x1x1024_S2x1x1024 : S2x1x1024.ShapeCasts S2x1x1024
  broadcasts_S2x1024x1_S2x1024x1024 : S2x1024x1.Broadcasts S2x1024x1024
  inb_S2x1024x2048_S2x1024x1024_0_0_0 : ∀ a, (![0, 0, 0] : Fin 3 → Nat) a + S2x1024x1024.size a ≤ S2x1024x2048.size a
  broadcasts_S2x1x1024_S2x1024x1024 : S2x1x1024.Broadcasts S2x1024x1024
  inb_S2x1024x2048_S2x1024x1024_0_0_1024 : ∀ a, (![0, 0, 1024] : Fin 3 → Nat) a + S2x1024x1024.size a ≤ S2x1024x2048.size a
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S32x1024x1024.size a
  hwx0_0 : ∀ i : grid0.Coords, EltTy.bits .f32 = 32 ∨ (Rect.block (s := S32x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024.size a ≤ S32x1x1024.size a
  hwx0_1 : ∀ i : grid0.Coords, EltTy.bits .f32 = 32 ∨ (Rect.block (s := S32x1x1024) S2x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x1.size a ≤ S32x1024x1.size a
  hwx0_2 : ∀ i : grid0.Coords, EltTy.bits .f32 = 32 ∨ (Rect.block (s := S32x1024x1) S2x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x2048.size a ≤ S32x1024x2048.size a
  hwx0_3 : ∀ i : grid0.Coords, EltTy.bits .f32 = 32 ∨ (Rect.block (s := S32x1024x2048) S2x1024x2048.size (cc0_transform_3 i) (hinb0_3 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2x1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S32x1024x1 : Shape := ⟨3, ![32, 1024, 1]⟩
abbrev S32x1x1024 : Shape := ⟨3, ![32, 1, 1024]⟩
abbrev S32x1024x2048 : Shape := ⟨3, ![32, 1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S32x1024, .f32⟩
  | .hbm, ⟨5, _⟩ => ⟨S1x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1024x1, .f32⟩
  | .hbm, ⟨17, _⟩ => ⟨S32x1024x1024, .f32⟩
  | .hbm, ⟨18, _⟩ => ⟨S32x1024x1024, .f32⟩
  | .hbm, ⟨19, _⟩ => ⟨S32x1x1024, .f32⟩
  | .hbm, ⟨20, _⟩ => ⟨S32x1024x1024, .f32⟩
  | .hbm, ⟨21, _⟩ => ⟨S32x1024x2048, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  concatenates_S32x1024x1024_S32x1024x1024_S32x1024x2048_d2 : Shape.Concatenates [S32x1024x1024, S32x1024x1024] S32x1024x2048 2
  dot_S32x1024_S1024x1024_S32x1024_1_0_0_1_n_n_wf : DotDims.WF S32x1024 S1024x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.Spec.lean ====
/-
  The function both programs compute, stated once over literal shapes and imported by neither program's text.

  For a batch of `n` items, a gate column `g : [n, 1024, 1]`, a tensor `a : [n, 1024, 1024]` and a query row
  `q : [n, 1, 1024]`, the result `[n, 1024, 2048]` holds in its lanes 0 … 1023 the rows of `a`, each scaled by its
  gate, `g[b, l, 0] · a[b, l, d]`, and in its lanes 1024 … 2047 the query row repeated down the 1024 rows,
  `q[b, 0, d − 1024]`. The kernel produces it two batch items at a time (`n = 2`: one block) and the whole array is the
  same function at `n = 32`; the reference produces it as a concatenation of two broadcasts.
-/
import Idealize.ShloMosaic.Lib.ValueIdx

noncomputable section

namespace Cert.GateConcat

open Idealize.ShloMosaic Idealize.ShloMosaic.ValueIdx

variable {F : FTy → Type} [FloatOps F]

/-- Lanes below 1024: the gate of row `(b, l)` times the tensor's entry; lanes from 1024 on: the query's entry
    `d − 1024` of batch item `b`, whatever the row. -/
def gatedConcat {n : Nat} (g : (⟨3, ![n, 1024, 1]⟩ : Shape).Idx → Elt F .f32)
    (a : (⟨3, ![n, 1024, 1024]⟩ : Shape).Idx → Elt F .f32)
    (q : (⟨3, ![n, 1, 1024]⟩ : Shape).Idx → Elt F .f32) :
    (⟨3, ![n, 1024, 2048]⟩ : Shape).Idx → Elt F .f32 := fun i =>
  if h : (i 2).val < 1024 then
    FloatOps.mulf (g (ix3 (i 0) (i 1) (0 : Fin 1))) (a (ix3 (i 0) (i 1) (⟨(i 2).val, h⟩ : Fin 1024)))
  else
    q (ix3 (i 0) (0 : Fin 1) (⟨(i 2).val - 1024, by have h2 : (i 2).val < 2048 := (i 2).isLt; omega⟩ : Fin 1024))

/-- In the low lanes the result is the product of the gate and tensor entries with the same batch and row
    coordinates (and the same lane, for the tensor). -/
theorem gatedConcat_apply_lo {n : Nat} (g : (⟨3, ![n, 1024, 1]⟩ : Shape).Idx → Elt F .f32)
    (a : (⟨3, ![n, 1024, 1024]⟩ : Shape).Idx → Elt F .f32) (q : (⟨3, ![n, 1, 1024]⟩ : Shape).Idx → Elt F .f32)
    (i : (⟨3, ![n, 1024, 2048]⟩ : Shape).Idx) (k : (⟨3, ![n, 1024, 1]⟩ : Shape).Idx)
    (l : (⟨3, ![n, 1024, 1024]⟩ : Shape).Idx)
    (hk0 : (k 0).val = (i 0).val) (hk1 : (k 1).val = (i 1).val)
    (hl0 : (l 0).val = (i 0).val) (hl1 : (l 1).val = (i 1).val) (hl2 : (l 2).val = (i 2).val) :
    gatedConcat g a q i = FloatOps.mulf (g k) (a l) := by
  have h : (i 2).val < 1024 := by rw [← hl2]; exact (l 2).isLt
  have ek : ix3 (i 0) (i 1) (0 : Fin 1) = k := funext fun d => Fin.ext (by
    match d with
    | ⟨0, _⟩ => exact hk0.symm
    | ⟨1, _⟩ => exact hk1.symm
    | ⟨2, _⟩ => have h1 : (k 2).val < 1 := (k 2).isLt; show 0 = (k 2).val; omega)
  have el : ix3 (i 0) (i 1) (⟨(i 2).val, h⟩ : Fin 1024) = l := funext fun d => Fin.ext (by
    match d with
    | ⟨0, _⟩ => exact hl0.symm
    | ⟨1, _⟩ => exact hl1.symm
    | ⟨2, _⟩ => exact hl2.symm)
  unfold gatedConcat
  rw [dif_pos h]
  exact congrArg₂ FloatOps.mulf (congrArg g ek) (congrArg a el)

/-- In the high lanes the result is the query entry of the same batch item, 1024 lanes back. -/
theorem gatedConcat_apply_hi {n : Nat} (g : (⟨3, ![n, 1024, 1]⟩ : Shape).Idx → Elt F .f32)
    (a : (⟨3, ![n, 1024, 1024]⟩ : Shape).Idx → Elt F .f32) (q : (⟨3, ![n, 1, 1024]⟩ : Shape).Idx → Elt F .f32)
    (i : (⟨3, ![n, 1024, 2048]⟩ : Shape).Idx) (k : (⟨3, ![n, 1, 1024]⟩ : Shape).Idx)
    (hk0 : (k 0).val = (i 0).val) (hk2 : (k 2).val + 1024 = (i 2).val) :
    gatedConcat g a q i = q k := by
  have h : ¬ (i 2).val < 1024 := by omega
  unfold gatedConcat
  rw [dif_neg h]
  refine congrArg q (funext fun d => Fin.ext ?_)
  match d with
  | ⟨0, _⟩ => exact hk0.symm
  | ⟨1, _⟩ => have h1 : (k 1).val < 1 := (k 1).isLt; show 0 = (k 1).val; omega
  | ⟨2, _⟩ => show (i 2).val - 1024 = (k 2).val; omega

/-- The same result from a gate matrix `g : [n, 1024]` and a query matrix `q : [n, 1024]`, without the unit axes:
    `g[b, l] · a[b, l, d]` in the low lanes, `q[b, d − 1024]` in the high ones. -/
def fused {n : Nat} (g : (⟨2, ![n, 1024]⟩ : Shape).Idx → Elt F .f32)
    (a : (⟨3, ![n, 1024, 1024]⟩ : Shape).Idx → Elt F .f32)
    (q : (⟨2, ![n, 1024]⟩ : Shape).Idx → Elt F .f32) :
    (⟨3, ![n, 1024, 2048]⟩ : Shape).Idx → Elt F .f32 := fun i =>
  if h : (i 2).val < 1024 then
    FloatOps.mulf (g (ix2 (i 0) (i 1))) (a (ix3 (i 0) (i 1) (⟨(i 2).val, h⟩ : Fin 1024)))
  else
    q (ix2 (i 0) (⟨(i 2).val - 1024, by have h2 : (i 2).val < 2048 := (i 2).isLt; omega⟩ : Fin 1024))

/-- In the low lanes `fused` is the product of the gate and tensor entries with the index's batch and row. -/
theorem fused_apply_lo {n : Nat} (g : (⟨2, ![n, 1024]⟩ : Shape).Idx → Elt F .f32)
    (a : (⟨3, ![n, 1024, 1024]⟩ : Shape).Idx → Elt F .f32) (q : (⟨2, ![n, 1024]⟩ : Shape).Idx → Elt F .f32)
    (i : (⟨3, ![n, 1024, 2048]⟩ : Shape).Idx) (k : (⟨2, ![n, 1024]⟩ : Shape).Idx)
    (l : (⟨3, ![n, 1024, 1024]⟩ : Shape).Idx)
    (hk0 : (k 0).val = (i 0).val) (hk1 : (k 1).val = (i 1).val)
    (hl0 : (l 0).val = (i 0).val) (hl1 : (l 1).val = (i 1).val) (hl2 : (l 2).val = (i 2).val) :
    fused g a q i = FloatOps.mulf (g k) (a l) := by
  have h : (i 2).val < 1024 := by rw [← hl2]; exact (l 2).isLt
  have ek : ix2 (i 0) (i 1) = k := funext fun d => Fin.ext (by
    match d with
    | ⟨0, _⟩ => exact hk0.symm
    | ⟨1, _⟩ => exact hk1.symm)
  have el : ix3 (i 0) (i 1) (⟨(i 2).val, h⟩ : Fin 1024) = l := funext fun d => Fin.ext (by
    match d with
    | ⟨0, _⟩ => exact hl0.symm
    | ⟨1, _⟩ => exact hl1.symm
    | ⟨2, _⟩ => exact hl2.symm)
  unfold fused
  rw [dif_pos h]
  exact congrArg₂ FloatOps.mulf (congrArg g ek) (congrArg a el)

/-- In the high lanes `fused` is the query entry of the index's batch item, 1024 lanes back. -/
theorem fused_apply_hi {n : Nat} (g : (⟨2, ![n, 1024]⟩ : Shape).Idx → Elt F .f32)
    (a : (⟨3, ![n, 1024, 1024]⟩ : Shape).Idx → Elt F .f32) (q : (⟨2, ![n, 1024]⟩ : Shape).Idx → Elt F .f32)
    (i : (⟨3, ![n, 1024, 2048]⟩ : Shape).Idx) (k : (⟨2, ![n, 1024]⟩ : Shape).Idx)
    (hk0 : (k 0).val = (i 0).val) (hk1 : (k 1).val + 1024 = (i 2).val) :
    fused g a q i = q k := by
  have h : ¬ (i 2).val < 1024 := by omega
  unfold fused
  rw [dif_neg h]
  refine congrArg q (funext fun d => Fin.ext ?_)
  match d with
  | ⟨0, _⟩ => exact hk0.symm
  | ⟨1, _⟩ => show (i 2).val - 1024 = (k 1).val; omega

/-- A gate column and a query row that are the gate and query matrices with a unit axis inserted give the same
    result: the unit axis carries no information. -/
theorem gatedConcat_eq_fused {n : Nat} (g3 : (⟨3, ![n, 1024, 1]⟩ : Shape).Idx → Elt F .f32)
    (a : (⟨3, ![n, 1024, 1024]⟩ : Shape).Idx → Elt F .f32) (q3 : (⟨3, ![n, 1, 1024]⟩ : Shape).Idx → Elt F .f32)
    (g q : (⟨2, ![n, 1024]⟩ : Shape).Idx → Elt F .f32)
    (hg : ∀ (b : Fin n) (l : Fin 1024), g3 (ix3 b l (0 : Fin 1)) = g (ix2 b l))
    (hq : ∀ (b : Fin n) (d : Fin 1024), q3 (ix3 b (0 : Fin 1) d) = q (ix2 b d)) :
    gatedConcat g3 a q3 = fused g a q := by
  funext i
  unfold gatedConcat fused
  by_cases h : (i 2).val < 1024
  · rw [dif_pos h, dif_pos h]
    exact congrArg (fun z => FloatOps.mulf z (a (ix3 (i 0) (i 1) (⟨(i 2).val, h⟩ : Fin 1024)))) (hg (i 0) (i 1))
  · rw [dif_neg h, dif_neg h]
    exact hq (i 0) _

end Cert.GateConcat

end
-- ==== Proof.Block.lean ====
/-
  What one run of the kernel body leaves in its output block, as the function of `Spec.lean` at a batch of two.

  The body stores twice into the `[2, 1024, 2048]` block: lanes 0 … 1023 receive the gate column broadcast along the
  lanes times the tensor block, and lanes 1024 … 2047 receive the query row broadcast down the rows. The two stored
  rectangles tile the block, each store is that one function read through its rectangle, so the block after the body
  is the function itself.
-/
import proofs.«113186_j4217657884733_2_alg».proof.Proof.Gen.KernelIdeal.Frame
import proofs.«113186_j4217657884733_2_alg».proof.Proof.Spec
import Idealize.ShloMosaic.Lib.Pipeline.Value
import Idealize.ShloMosaic.Lib.ValueIdx

noncomputable section

namespace Cert.KernelIdeal.Block

open Cert.KernelIdeal Cert.KernelIdeal.Gen Cert.GateConcat
open Idealize.ShloMosaic Idealize.ShloMosaic.TcCoe Idealize.ShloMosaic.ValueIdx

variable {F : FTy → Type} [FloatOps F]

theorem zero3 : (![0, 0, 0] : Fin 3 → Nat) = fun _ => 0 := funext fun a => by fin_cases a <;> rfl

/-- The first store's value at an index: the gate of the index's row times the tensor's entry there. The gate
    column has one lane, which the broadcast repeats along the 1024 lanes. -/
theorem scaled_apply (v0 : Vec F S2x1024x1024 .f32) (v1 : Vec F S2x1024x1 .f32) (x : S2x1024x1024.Idx) :
    k0_pay1 v0 v1 x = FloatOps.mulf (v1 (ix3 (x 0) (x 1) (0 : Fin 1))) (v0 x) := by
  unfold k0_pay1
  show FloatOps.mulf (broadcastTo S2x1024x1024 (shapeCast S2x1024x1 v1 shapeCasts_S2x1024x1_S2x1024x1) broadcasts_S2x1024x1_S2x1024x1024 x) (v0 x) = _
  rw [shapeCast_self]
  refine congrArg (fun z => FloatOps.mulf z (v0 x)) ?_
  exact broadcastTo_apply v1 broadcasts_S2x1024x1_S2x1024x1024 x _ (fun a => match a with
    | ⟨0, _⟩ => by show (x 0).val = if (2 : Nat) = 1 then 0 else (x 0).val; rw [if_neg (by decide)]
    | ⟨1, _⟩ => by show (x 1).val = if (1024 : Nat) = 1 then 0 else (x 1).val; rw [if_neg (by decide)]
    | ⟨2, _⟩ => by show 0 = if (1 : Nat) = 1 then 0 else (x 2).val; rw [if_pos rfl])

/-- The second store's value at an index: the query's entry at the index's batch item and lane; the query block
    has one row, which the broadcast repeats down the 1024 rows. -/
theorem query_apply (v3 : Vec F S2x1x1024 .f32) (x : S2x1024x1024.Idx) :
    k0_pay2 v3 x = v3 (ix3 (x 0) (0 : Fin 1) (x 2)) := by
  unfold k0_pay2
  show broadcastTo S2x1024x1024 (shapeCast S2x1x1024 (shapeCast S2x1x1024 v3 shapeCasts_S2x1x1024_S2x1x1024) shapeCasts_S2x1x1024_S2x1x1024) broadcasts_S2x1x1024_S2x1024x1024 x = _
  rw [shapeCast_self, shapeCast_self]
  exact broadcastTo_apply v3 broadcasts_S2x1x1024_S2x1024x1024 x _ (fun a => match a with
    | ⟨0, _⟩ => by show (x 0).val = if (2 : Nat) = 1 then 0 else (x 0).val; rw [if_neg (by decide)]
    | ⟨1, _⟩ => by show 0 = if (1 : Nat) = 1 then 0 else (x 1).val; rw [if_pos rfl]
    | ⟨2, _⟩ => by show (x 2).val = if (1024 : Nat) = 1 then 0 else (x 2).val; rw [if_neg (by decide)])

/-- After the body the output block is the gated concatenation of the three input blocks: each of the two stores
    agrees with it on its rectangle (the first at lane offset 0, the second at lane offset 1024), and the two
    rectangles cover the block. -/
theorem out_eq (x0 : Vec F S2x1024x1024 .f32) (x1 : Vec F S2x1x1024 .f32) (x2 : Vec F S2x1024x1 .f32) :
    out0_3 x0 x1 x2 = gatedConcat x2 x0 x1 := by
  funext y
  unfold out0_3
  refine View.canon_apply_of_pieces (gatedConcat x2 x0 x1) _ ?_ y (cover0_3 _ _ y)
  intro p hp x
  simp only [List.mem_cons, List.not_mem_nil, or_false] at hp
  rcases hp with rfl | rfl
  · show k0_pay2 (View.ld x1 r0_2) x = gatedConcat x2 x0 x1 (r0_4.emb x)
    rw [query_apply, View.ld_unit_zero (S := S2x1x1024) zero3]
    refine (gatedConcat_apply_hi x2 x0 x1 (r0_4.emb x) _ ?_ ?_).symm
    · show (x 0).val = 0 + 1 * (x 0).val; omega
    · show (x 2).val + 1024 = 1024 + 1 * (x 2).val; omega
  · show k0_pay1 (View.ld x0 r0_0) (View.ld x2 r0_1) x = gatedConcat x2 x0 x1 (r0_3.emb x)
    rw [scaled_apply, View.ld_unit_zero (S := S2x1024x1024) zero3, View.ld_unit_zero (S := S2x1024x1) zero3]
    refine (gatedConcat_apply_lo x2 x0 x1 (r0_3.emb x) _ _ ?_ ?_ ?_ ?_ ?_).symm
    · show (x 0).val = 0 + 1 * (x 0).val; omega
    · show (x 1).val = 0 + 1 * (x 1).val; omega
    · show (x 0).val = 0 + 1 * (x 0).val; omega
    · show (x 1).val = 0 + 1 * (x 1).val; omega
    · show (x 2).val = 0 + 1 * (x 2).val; omega

end Cert.KernelIdeal.Block

end
-- ==== Proof.KernelValue.lean ====
/-
  The kernel's result array after the run, as one function of the argument arrays.

  Before the launch the host computes the gate matrix `1 / (1 + exp (−(query · W + b)))` of shape `[32, 1024]` and
  gives it a trailing unit axis, and gives the query a middle unit axis. The grid has 16 points; point `t` works on batch
  items `2t` and `2t + 1`: its tensor, gate and query blocks are those two batch items of the three arrays, and it
  writes those two batch items of the result. By `Block.lean` the block written is the gated concatenation of the
  blocks read, which is the gated concatenation of the whole arrays restricted to the two batch items; the 16 blocks
  cover the result array.
-/
import proofs.«113186_j4217657884733_2_alg».proof.Proof.Gen.KernelIdeal.Value
import proofs.«113186_j4217657884733_2_alg».proof.Proof.Block
import proofs.«113186_j4217657884733_2_alg».proof.Proof.Spec
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen Cert.GateConcat
open Idealize.ShloMosaic Idealize.ShloMosaic.TcCoe Idealize.SL.Sem Idealize.ShloMosaic.StableHlo
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The gate matrix the host computes: the logistic function `1 / (1 + exp (−z))` of `z = query · W + b`, the bias
    row repeated over the 32 batch items. -/
def gate (x1 : S32x1024.Idx → Elt F .f32) (x2 : S1024x1024.Idx → Elt F .f32) (x3 : S1024.Idx → Elt F .f32) :
    S32x1024.Idx → Elt F .f32 :=
  Host.divf (broadcastInDim S32x1024 ![] bcast_S_S32x1024 (constant (F := F) S_ .f32 0x3F800000#32))
    (addf (broadcastInDim S32x1024 ![] bcast_S_S32x1024 (constant (F := F) S_ .f32 0x3F800000#32))
      (Host.exp (Host.negf (addf
        (Host.dotGeneral dot_S32x1024_S1024x1024_S32x1024_1_0_0_1_n_n none x1 x2)
        (broadcastInDim S32x1024 ![0, 1] bcast_S1x1024_S32x1024_0_1
          (broadcastInDim S1x1024 ![1] bcast_S1024_S1x1024_1 x3))))))

/-- The query array the launch stages: the query argument with a unit axis in the middle. -/
theorem V_query (c : Dev nD) : (V m c main_v10 : S32x1x1024.Idx → Elt F .f32)
    = shapeCast S32x1x1024 (m ((c : Thread nD τ).loc main_arg1)) shapeCasts_S32x1024_S32x1x1024 := by
  dsimp only [Gen.V, Gen.hostOps0]
  after_results
  rfl

/-- The gate array the launch stages: the host's gate matrix with a trailing unit axis. -/
theorem V_gate (c : Dev nD) : (V m c main_v11 : S32x1024x1.Idx → Elt F .f32)
    = shapeCast S32x1024x1 (gate (m ((c : Thread nD τ).loc main_arg1)) (m ((c : Thread nD τ).loc main_arg2))
        (m ((c : Thread nD τ).loc main_arg3))) shapeCasts_S32x1024_S32x1024x1 := by
  dsimp only [Gen.V, Gen.hostOps0]
  after_results
  rfl

/-- The whole result array: the gated concatenation of the three staged arrays. -/
def result (c : Dev nD) : S32x1024x2048.Idx → Elt F .f32 :=
  gatedConcat (n := 32) (V m c main_v11 : S32x1024x1.Idx → Elt F .f32)
    (V m c main_arg0 : S32x1024x1024.Idx → Elt F .f32) (V m c main_v10 : S32x1x1024.Idx → Elt F .f32)

/-- Every window's block index at a grid point is `(t, 0, 0)`: the blocks move along the batch axis only, all four
    together. (Decided over the 16 points.) -/
theorem blocks_move_with_batch : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 :=
  (by decide +kernel : ∀ t : Fin grid0.N, _)

/-- Every pair of batch items is some point's. -/
theorem every_batch_pair_has_point : ∀ q0 : Fin 16, ∃ t : Fin cfg0.N, win0_3.index t = ![q0.val, 0, 0] :=
  (by decide +kernel : ∀ q0 : Fin 16, ∃ t : Fin grid0.N, win0_3.index t = ![q0.val, 0, 0])

/-- What point `t` writes back is its block of `result`: the body's block is the gated concatenation of the input
    blocks (`Block.out_eq`), and each input block entry it reads is the staged array's entry with the same batch item,
    row and lane as the output entry. -/
theorem written_block_eq (c : Dev nD) (t : Fin cfg0.N) :
    (dats m 0 c).flushed 3 t = ((cfg0.win 3).blk t).view.read (Elt F) (result m c) := by
  rw [Value.flushed3, Block.out_eq]
  obtain ⟨e00, e01, e02, e10, e11, e12, e20, e21, e22, e31, e32⟩ := blocks_move_with_batch t
  funext j
  have hj0 : (j 0).val < 2 := (j 0).isLt
  have hj1 : (j 1).val < 1024 := (j 1).isLt
  have hj2 : (j 2).val < 2048 := (j 2).isLt
  by_cases h : (j 2).val < 1024
  · refine (gatedConcat_apply_lo (iblk m c 2 t) (iblk m c 0 t) (iblk m c 1 t) j
      (ix3 (j 0) (j 1) (0 : Fin 1)) (ix3 (j 0) (j 1) (⟨(j 2).val, h⟩ : Fin 1024)) rfl rfl rfl rfl rfl).trans ?_
    refine (gatedConcat_apply_lo (n := 32) (V m c main_v11) (V m c main_arg0) (V m c main_v10)
      (((cfg0.win 3).blk t).view.emb j)
      (((cfg0.win 2).blk t).view.emb (ix3 (j 0) (j 1) (0 : Fin 1)))
      (((cfg0.win 0).blk t).view.emb (ix3 (j 0) (j 1) (⟨(j 2).val, h⟩ : Fin 1024))) ?_ ?_ ?_ ?_ ?_).symm
    · show win0_2.index t (0 : Fin 3) * 2 + 1 * (j 0).val = win0_3.index t (0 : Fin 3) * 2 + 1 * (j 0).val; omega
    · show win0_2.index t (1 : Fin 3) * 1024 + 1 * (j 1).val = win0_3.index t (1 : Fin 3) * 1024 + 1 * (j 1).val; omega
    · show win0_0.index t (0 : Fin 3) * 2 + 1 * (j 0).val = win0_3.index t (0 : Fin 3) * 2 + 1 * (j 0).val; omega
    · show win0_0.index t (1 : Fin 3) * 1024 + 1 * (j 1).val = win0_3.index t (1 : Fin 3) * 1024 + 1 * (j 1).val; omega
    · show win0_0.index t (2 : Fin 3) * 1024 + 1 * (j 2).val = win0_3.index t (2 : Fin 3) * 2048 + 1 * (j 2).val; omega
  · refine (gatedConcat_apply_hi (iblk m c 2 t) (iblk m c 0 t) (iblk m c 1 t) j
      (ix3 (j 0) (0 : Fin 1) (⟨(j 2).val - 1024, by omega⟩ : Fin 1024)) rfl (by show (j 2).val - 1024 + 1024 = (j 2).val; omega)).trans ?_
    refine (gatedConcat_apply_hi (n := 32) (V m c main_v11) (V m c main_arg0) (V m c main_v10)
      (((cfg0.win 3).blk t).view.emb j)
      (((cfg0.win 1).blk t).view.emb (ix3 (j 0) (0 : Fin 1) (⟨(j 2).val - 1024, by omega⟩ : Fin 1024))) ?_ ?_).symm
    · show win0_1.index t (0 : Fin 3) * 2 + 1 * (j 0).val = win0_3.index t (0 : Fin 3) * 2 + 1 * (j 0).val; omega
    · show win0_1.index t (2 : Fin 3) * 1024 + 1 * ((j 2).val - 1024) + 1024 = win0_3.index t (2 : Fin 3) * 2048 + 1 * (j 2).val; omega

/-- An index of the result array is in point `t`'s block iff each coordinate is in the block's range on its axis. -/
theorem mem_batch_pair_block (t : Fin cfg0.N) (i : S32x1024x2048.Idx) :
    i ∈ ((cfg0.win 3).blk t).view.set ↔ ∀ a : Fin 3, win0_3.index t a * S2x1024x2048.size a ≤ (i a).val
      ∧ (i a).val < win0_3.index t a * S2x1024x2048.size a + S2x1024x2048.size a := by
  show i ∈ ((View.whole main_v12).slice (win0_3.rect t)).set ↔ _
  rw [View.set_slice_whole, Rect.mem_set_unit]
  exact Iff.rfl

/-- Every index of the result array is in the block of the point that handles its pair of batch items. -/
theorem batch_pairs_cover (i : S32x1024x2048.Idx) :
    ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 2048 := (i 2).isLt
  obtain ⟨t, ht⟩ := every_batch_pair_has_point ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_batch_pair_block]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 2048 ≤ (i 2).val ∧ (i 2).val < win0_3.index t (2 : Fin 3) * 2048 + 2048; omega

/-- So the result array after the run is `result`. -/
theorem array_eq_result (c : Dev nD) : (dats m 0 c).arrAt 3 cfg0.N = result m c :=
  (dats m 0 c).arrAt_eq_of_cover 3 (result m c) (fun t _ => written_block_eq m c t) batch_pairs_cover

/-- Reading the reshaped gate and query through their unit axes, `result` is `fused` of the host's gate matrix, the
    tensor argument and the query argument. A reshape keeps the row-major position, and the position of `(b, l, 0)` in
    `[32, 1024, 1]` is that of `(b, l)` in `[32, 1024]`; likewise `(b, 0, d)` in `[32, 1, 1024]`. -/
theorem result_eq (c : Dev nD) : result m c
    = fused (n := 32) (gate (m ((c : Thread nD τ).loc main_arg1)) (m ((c : Thread nD τ).loc main_arg2)) (m ((c : Thread nD τ).loc main_arg3)))
        (m ((c : Thread nD τ).loc main_arg0)) (m ((c : Thread nD τ).loc main_arg1)) := by
  unfold result
  rw [V_gate, V_query, V_main_arg0]
  refine gatedConcat_eq_fused _ _ _ _ _ (fun b l => ?_) (fun b d => ?_)
  · refine shapeCast_apply _ _ _ _ ?_
    rw [Shape.rowMajor_val_two, Shape.rowMajor_val_three]
    show b.val * 1024 + l.val = (b.val * 1024 + l.val) * 1 + 0
    omega
  · refine shapeCast_apply _ _ _ _ ?_
    show (S32x1024.rowMajor (ix2 b d)).val = (S32x1x1024.rowMajor (ix3 b (0 : Fin 1) d)).val
    rw [Shape.rowMajor_val_two, Shape.rowMajor_val_three]
    show b.val * 1024 + d.val = (b.val * 1 + 0) * 1024 + d.val
    omega

/-- The kernel's run, read: the result array ends at `fused` of the gate, the tensor and the query; the arguments
    are unchanged. -/
theorem run : θ_run defs (onTc (τ := τ) (main (F := F))) ⟨m, fun _ => 0, ρ⟩ fun r => ∀ c : Dev nD,
      r.2.mem ((c : Thread nD τ).loc main_v12)
        = fused (n := 32) (gate (m ((c : Thread nD τ).loc main_arg1)) (m ((c : Thread nD τ).loc main_arg2)) (m ((c : Thread nD τ).loc main_arg3)))
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((array_eq_result m c).trans (result_eq m c)), (h c).2⟩)
    (Value.run_blocks m ρ)

end Cert.KernelIdeal.Hand

end
-- ==== Proof.RefValue.lean ====
/-
  The reference's result, index by index, as `fused` of its gate matrix, the tensor and the query.

  The reference multiplies the tensor by the gate matrix broadcast along the lanes (through a trailing unit axis),
  broadcasts the query down the rows (through a middle unit axis), and concatenates the two along the lane axis. An
  index whose lane is below 1024 falls in the first piece and reads `gate[b, l] · a[b, l, d]`; an index whose lane is
  1024 or more falls in the second piece, 1024 lanes back, and reads `query[b, d − 1024]`.
-/
import proofs.«113186_j4217657884733_2_alg».proof.Proof.Gen.ReferenceIdeal.Read
import proofs.«113186_j4217657884733_2_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Cert.GateConcat
open Idealize.ShloMosaic Idealize.ShloMosaic.TcCoe Idealize.ShloMosaic.ValueIdx

variable {F : FTy → Type} [FloatOps F]

/-- The concatenation read at an index is `fused` there: the first piece in the low lanes, the second, shifted by
    1024 lanes, in the high ones; each broadcast reads its operand at the index's batch and row (for the gate) or
    batch and lane (for the query). -/
theorem result_eq (x0 : S32x1024x1024.Idx → Elt F .f32) (x1 : S32x1024.Idx → Elt F .f32)
    (x2 : S1024x1024.Idx → Elt F .f32) (x3 : S1024.Idx → Elt F .f32) :
    val_main_v15 (F := F) x0 x1 x2 x3 = fused (n := 32) (val_main_v9 (F := F) x1 x2 x3) x0 x1 := by
  funext j
  have hj2 : (j 2).val < 2048 := (j 2).isLt
  unfold val_main_v15
  by_cases h : (j 2).val < 1024
  · refine (concatenate_pair_apply_left (2 : Fin 3) (val_main_v12 (F := F) x0 x1 x2 x3) (val_main_v14 (F := F) x1)
      concatenates_S32x1024x1024_S32x1024x1024_S32x1024x2048_d2 j rfl
      (ix3 (j 0) (j 1) (⟨(j 2).val, h⟩ : Fin 1024)) (fun b => match b with
        | ⟨0, _⟩ => rfl
        | ⟨1, _⟩ => rfl
        | ⟨2, _⟩ => rfl)).trans ?_
    rw [val_main_v12_apply, val_main_v11_apply, val_main_v10_apply]
    exact (fused_apply_lo (val_main_v9 (F := F) x1 x2 x3) x0 x1 j _ _ rfl rfl rfl rfl rfl).symm
  · refine (concatenate_pair_apply_right (2 : Fin 3) (val_main_v12 (F := F) x0 x1 x2 x3) (val_main_v14 (F := F) x1)
      concatenates_S32x1024x1024_S32x1024x1024_S32x1024x2048_d2 j rfl rfl
      (ix3 (j 0) (j 1) (⟨(j 2).val - 1024, by omega⟩ : Fin 1024)) (fun b => match b with
        | ⟨0, _⟩ => fun _ => rfl
        | ⟨1, _⟩ => fun _ => rfl
        | ⟨2, _⟩ => fun hb => absurd rfl hb)
      (by show (j 2).val - 1024 + 1024 = (j 2).val; omega)).trans ?_
    rw [val_main_v14_apply, val_main_v13_apply]
    refine (fused_apply_hi (val_main_v9 (F := F) x1 x2 x3) x0 x1 j _ rfl ?_).symm
    show (j 2).val - 1024 + 1024 = (j 2).val
    omega

end Cert.ReferenceIdeal.Hand

end
-- ==== Proof.lean ====
/-
  The certificate's claims for the gated-concatenation kernel against its jnp reference.

  Both programs compute, for a tensor `a : [32, 1024, 1024]`, a query `x : [32, 1024]`, weights `W : [1024, 1024]` and a
  bias `b : [1024]`, the array `[32, 1024, 2048]` whose lanes 0 … 1023 hold `gate[n, l] · a[n, l, d]` with
  `gate = 1 / (1 + exp (−(x · W + b)))`, and whose lanes 1024 … 2047 hold `x[n, d − 1024]`. The two programs compute the
  gate by the same host operations in the same order; the kernel then reshapes gate and query and lets each grid point
  scale two batch items of the tensor and copy the query rows beside them, while the reference broadcasts, multiplies and
  concatenates whole arrays. Over the extended reals the two results are the same function of the arguments, entry by
  entry, with no algebraic law needed: each entry is one product (of the same two factors in the same order) or one copy.

  `Spec.lean` states the function; `Block.lean` and `KernelValue.lean` show the kernel's result array is that function
  (one block, then the array from its 16 blocks); `RefValue.lean` shows the reference's is; here the two gates are
  identified and the five claims assembled. The three frame claims are the programs' runs with the value forgotten;
  the idealization rewrote nothing, so its claim is trivial.
-/
import proofs.«113186_j4217657884733_2_alg».proof.Defs
import proofs.«113186_j4217657884733_2_alg».proof.Proof.Gen.Kernel
import proofs.«113186_j4217657884733_2_alg».proof.Proof.Gen.Kernel.Skeleton
import proofs.«113186_j4217657884733_2_alg».proof.Proof.Gen.Kernel.Launch
import proofs.«113186_j4217657884733_2_alg».proof.Proof.Gen.Kernel.Points
import proofs.«113186_j4217657884733_2_alg».proof.Proof.Gen.Kernel.Frame
import proofs.«113186_j4217657884733_2_alg».proof.Proof.Gen.KernelIdeal
import proofs.«113186_j4217657884733_2_alg».proof.Proof.Gen.KernelIdeal.Skeleton
import proofs.«113186_j4217657884733_2_alg».proof.Proof.Gen.KernelIdeal.Launch
import proofs.«113186_j4217657884733_2_alg».proof.Proof.Gen.KernelIdeal.Points
import proofs.«113186_j4217657884733_2_alg».proof.Proof.Gen.KernelIdeal.Frame
import proofs.«113186_j4217657884733_2_alg».proof.Proof.Gen.ReferenceIdeal
import proofs.«113186_j4217657884733_2_alg».proof.Proof.Gen.KernelIdeal.Value
import proofs.«113186_j4217657884733_2_alg».proof.Proof.Gen.ReferenceIdeal.Run
import proofs.«113186_j4217657884733_2_alg».proof.Proof.Gen.ReferenceIdeal.Read
import proofs.«113186_j4217657884733_2_alg».proof.Proof.Gen.Pre_finite_inputs
import proofs.«113186_j4217657884733_2_alg».proof.Proof.Spec
import proofs.«113186_j4217657884733_2_alg».proof.Proof.KernelValue
import proofs.«113186_j4217657884733_2_alg».proof.Proof.RefValue
import Idealize.ShloMosaic.Adequacy
import Idealize.ShloMosaic.Init

noncomputable section

namespace Cert.Proof

open Idealize.ShloMosaic Idealize.ShloMosaic.TcCoe Idealize.SL.Sem Cert.GateConcat

/-- The two programs' gate matrices are one function of the query, the weights and the bias: the same eleven host
    operations — product, bias broadcast, sum, negation, exponential, one plus, reciprocal — over the same shapes. -/
theorem gate_eq (x1 : Cert.KernelIdeal.S32x1024.Idx → Elt Ideal .f32) (x2 : Cert.KernelIdeal.S1024x1024.Idx → Elt Ideal .f32)
    (x3 : Cert.KernelIdeal.S1024.Idx → Elt Ideal .f32) :
    Cert.ReferenceIdeal.Read.val_main_v9 (F := Ideal) x1 x2 x3 = Cert.KernelIdeal.Hand.gate (F := Ideal) x1 x2 x3 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result array at `fused` of the gate
    matrix, the tensor and the query: the kernel by `KernelValue.run`, the reference by its run read through
    `RefValue.result_eq`, the arguments' agreement and the gates' identity. -/
theorem algebraic : Cert.algebraic_KernelIdeal_ReferenceIdeal := by
  intro m ρ m' ρ' _ hagree
  refine ⟨fun c => fused (n := 32)
      (Cert.KernelIdeal.Hand.gate (F := Ideal) (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3)))
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Hand.result_eq,
    (hagree c).1, (hagree c).2.1, (hagree c).2.2.1, (hagree c).2.2.2, gate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
